-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_arg7 : FVec F S64x32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  main_v33

def fn {F : FTy → Type} [FloatOps F] (main_arg0 : FVec F S100000x64 .f32) (main_arg1 : IVec S2x1000000 32) (main_arg2 : FVec F S64x64 .f32) (main_arg3 : FVec F S64 .f32) (main_arg4 : FVec F S64x64 .f32) (main_arg5 : FVec F S64x32 .f32) (main_arg6 : FVec F S32 .f32) (main_arg7 : FVec F S64x32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 56
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .f32⟩
  | .hbm, ⟨13, _⟩ => ⟨S1000000, .f32⟩
  | .hbm, ⟨14, _⟩ => ⟨S_, .f32⟩
  | .hbm, ⟨15, _⟩ => ⟨S100000, .f32⟩
  | .hbm, ⟨16, _⟩ => ⟨S1000000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x64, .f32⟩
  | .hbm, ⟨31, _⟩ => ⟨S_, .f32⟩
  | .hbm, ⟨32, _⟩ => ⟨S100000x64, .f32⟩
  | .hbm, ⟨33, _⟩ => ⟨S1000000x1, .i32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000x64, .f32⟩
  | .hbm, ⟨48, _⟩ => ⟨S_, .f32⟩
  | .hbm, ⟨49, _⟩ => ⟨S100000x64, .f32⟩
  | .hbm, ⟨50, _⟩ => ⟨S1000000x1, .i32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S1x32, .f32⟩
  | .hbm, ⟨55, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x32, .f32⟩
  | .local _ .vmem, ⟨14, _⟩ => ⟨S1x32, .f32⟩
  | .local _ .vmem, ⟨15, _⟩ => ⟨S64x32, .f32⟩
  | .local _ .vmem, ⟨16, _⟩ => ⟨S5000x32, .f32⟩
  | .local _ .vmem, ⟨17, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 101
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S_, .f32⟩
  | .hbm, ⟨22, _⟩ => ⟨S100000x64, .f32⟩
  | .hbm, ⟨23, _⟩ => ⟨S1000000x1, .i32⟩
  | .hbm, ⟨24, _⟩ => ⟨S100000x64, .f32⟩
  | .hbm, ⟨25, _⟩ => ⟨S_, .f32⟩
  | .hbm, ⟨26, _⟩ => ⟨S1000000, .f32⟩
  | .hbm, ⟨27, _⟩ => ⟨S_, .f32⟩
  | .hbm, ⟨28, _⟩ => ⟨S100000, .f32⟩
  | .hbm, ⟨29, _⟩ => ⟨S1000000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000, .f32⟩
  | .hbm, ⟨46, _⟩ => ⟨S100000x1, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S1x1000000, .i32⟩
  | .hbm, ⟨57, _⟩ => ⟨S1000000, .i32⟩
  | .hbm, ⟨58, _⟩ => ⟨S1x1000000, .i32⟩
  | .hbm, ⟨59, _⟩ => ⟨S1000000, .i32⟩
  | .hbm, ⟨60, _⟩ => ⟨S_, .i32⟩
  | .hbm, ⟨61, _⟩ => ⟨S1000000, .i32⟩
  | .hbm, ⟨62, _⟩ => ⟨S1000000, .i1⟩
  | .hbm, ⟨63, _⟩ => ⟨S_, .i32⟩
  | .hbm, ⟨64, _⟩ => ⟨S1000000, .i32⟩
  | .hbm, ⟨65, _⟩ => ⟨S1000000, .i32⟩
  | .hbm, ⟨66, _⟩ => ⟨S1000000, .i32⟩
  | .hbm, ⟨67, _⟩ => ⟨S1000000x1, .i32⟩
  | .hbm, ⟨68, _⟩ => ⟨S1000000x64, .f32⟩
  | .hbm, ⟨69, _⟩ => ⟨S_, .f32⟩
  | .hbm, ⟨70, _⟩ => ⟨S100000x64, .f32⟩
  | .hbm, ⟨71, _⟩ => ⟨S1000000x1, .i32⟩
  | .hbm, ⟨72, _⟩ => ⟨S100000x64, .f32⟩
  | .hbm, ⟨73, _⟩ => ⟨S_, .f32⟩
  | .hbm, ⟨74, _⟩ => ⟨S1000000, .f32⟩
  | .hbm, ⟨75, _⟩ => ⟨S_, .f32⟩
  | .hbm, ⟨76, _⟩ => ⟨S100000, .f32⟩
  | .hbm, ⟨77, _⟩ => ⟨S1000000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x64, .f32⟩
  | .hbm, ⟨84, _⟩ => ⟨S100000x64, .f32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | .hbm, ⟨89, _⟩ => ⟨S100000x32, .f32⟩
  | .hbm, ⟨90, _⟩ => ⟨S100000x32, .f32⟩
  | .hbm, ⟨91, _⟩ => ⟨S100000x32, .f32⟩
  | .hbm, ⟨92, _⟩ => ⟨S_, .f32⟩
  | .hbm, ⟨93, _⟩ => ⟨S100000, .f32⟩
  | .hbm, ⟨94, _⟩ => ⟨S100000x1, .f32⟩
  | .hbm, ⟨95, _⟩ => ⟨S100000x1, .f32⟩
  | .hbm, ⟨96, _⟩ => ⟨S_, .f32⟩
  | .hbm, ⟨97, _⟩ => ⟨S100000x1, .f32⟩
  | .hbm, ⟨98, _⟩ => ⟨S100000x1, .f32⟩
  | .hbm, ⟨99, _⟩ => ⟨S100000x32, .f32⟩
  | .hbm, ⟨100, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_cst : Ref sig .tc := ⟨.hbm, 53, rfl⟩
abbrev main_call0_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  bcast_S100000x1_S100000x32_0_1 : S100000x1.BroadcastsInDim S100000x32 (![0, 1] : Fin 2 → Fin S100000x32.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The idealized kernel's run with its result array named.

  The program is four segments: host operations, the first layer's row-tiled kernel, host operations, the second
  layer's row-tiled kernel. Along them the contents of every buffer are a fold from the launch memory: after a host
  stretch, the stretch's operations applied; after a kernel region, the region's arrays at what its write-backs leave.
  Every weakly fair execution terminates, and the final memory holds, in every unscoped buffer, the last boundary's
  contents. Read at the result buffer this names the result; read at the arguments it says they are unchanged.
-/
import proofs.«162723_j6700148982287_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents of its buffer (what the second kernel's write-backs leave), and every argument as launched. -/
theorem run_named : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.LibKeepdims.lean ====
/-
  A row statistic kept as a column, read at an index.

  A kernel that reduces each row of an [a, b] array to one number and then uses that number on every lane of the row
  (a sum with keepdims, a row norm, a row maximum) writes three layout steps: the lane reduction [a, b] → [a], a
  cast [a] → [a, 1] that keeps the statistic as a column, and a broadcast [a, 1] → [a, b] back over the lanes.
  Each lemma below reads one of these steps at an index written out in coordinates: the column at (i, u) is the
  vector at i; the broadcast at (p, c) is the column at (p, 0); the lane sum at p is the sum over k of the array
  at (p, k). They hold for every extent a and b and every element type (the lane sum: at the exact instance, where a
  float sum is the sum of extended reals).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- An `[a]` vector cast to the column `[a, 1]` reads, at `(i, u)`, the vector at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast over `b` lanes reads, at `(p, c)`, the column at row `p`: the row coordinate is kept (or
    is `0` when there is only one row), the unit axis is read at `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance a float `add` reduction of an `[a, b]` array along its lanes reads, at row `p`, the sum over
    the lane `k` of the array at `(p, k)`: the reduced index with the lane coordinate put back is `(p, k)`. -/
theorem multiReduction_add_lanes {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Cert.Lib.Keepdims

end
-- ==== Proof.RowLayer.lean ====
/-
  One layer of the network, row by row, on the extended reals.

  A layer takes the node features x and the neighbourhood means, both N × K, two K × n weight matrices wl and wr and a
  bias b of length n. Entry (r, j) of its linear part is

      lin r j = ((∑ k, mean r k · wl k j) + b j) + ∑ k, x r k · wr k j,

  the row's scale is the larger of the Euclidean norm of the row, √(∑ j, (lin r j)²), and a fixed small positive number,
  and the layer's output is lin r j divided by the scale of row r; the first layer then takes the larger of that and 0.
  Entry (r, j) depends on row r of x and of the means only, so a tile of rows computes the same numbers as the whole array.
  Sums are sums of extended reals, the quotient and the square root the total ones of the exact instance.
-/
import Idealize.ShloMosaic.PureOps.Ideal
import Idealize.ShloMosaic.Lib.ValueIdx

noncomputable section

namespace Cert.RowLayer

open Idealize.ShloMosaic Idealize.ShloMosaic.ValueIdx

variable {N K n : ℕ}

/-- The floor under a row's norm: the binary value of the single-precision word both programs write for it. -/
def normFloor : EReal := Ideal.ofBits .f32 0x2B8CBCCC#32

/-- The single-precision zero word, as both programs write it. -/
def zero : EReal := Ideal.ofBits .f32 0x00000000#32

/-- Entry (r, j) of the linear part: the means through `wl`, plus the bias, plus the features through `wr`, in that order. -/
def lin (x mean : Fin N → Fin K → EReal) (wl wr : Fin K → Fin n → EReal) (b : Fin n → EReal) (r : Fin N) (j : Fin n) : EReal :=
  ((∑ k : Fin K, mean r k * wl k j) + b j) + ∑ k : Fin K, x r k * wr k j

/-- The scale of row r of a family L: its Euclidean norm, or the floor if that is larger. -/
def scale (L : Fin N → Fin n → EReal) (r : Fin N) : EReal :=
  max (Ideal.sqrt (∑ j : Fin n, L r j * L r j)) normFloor

/-- Row-normalised: each entry over its row's scale. -/
def normed (L : Fin N → Fin n → EReal) (r : Fin N) (j : Fin n) : EReal :=
  Ideal.div (L r j) (scale L r)

/-- Row-normalised, then the larger of that and zero. -/
def normedPos (L : Fin N → Fin n → EReal) (r : Fin N) (j : Fin n) : EReal :=
  max (normed L r j) zero

/-- The scale of a row depends on that row only. -/
theorem scale_congr {N' : ℕ} (L : Fin N → Fin n → EReal) (L' : Fin N' → Fin n → EReal) (r : Fin N) (r' : Fin N')
    (h : ∀ j, L r j = L' r' j) : scale L r = scale L' r' := by
  unfold scale
  simp only [h]

/-- A normalised entry depends on its row only. -/
theorem normed_congr {N' : ℕ} (L : Fin N → Fin n → EReal) (L' : Fin N' → Fin n → EReal) (r : Fin N) (r' : Fin N')
    (h : ∀ j, L r j = L' r' j) (j : Fin n) : normed L r j = normed L' r' j := by
  unfold normed
  rw [h j, scale_congr L L' r r' h]

theorem normedPos_congr {N' : ℕ} (L : Fin N → Fin n → EReal) (L' : Fin N' → Fin n → EReal) (r : Fin N) (r' : Fin N')
    (h : ∀ j, L r j = L' r' j) (j : Fin n) : normedPos L r j = normedPos L' r' j := by
  unfold normedPos
  rw [normed_congr L L' r r' h j]

/-- The linear part of a row depends on that row of the features and of the means only. -/
theorem lin_congr {N' : ℕ} (x mean : Fin N → Fin K → EReal) (x' mean' : Fin N' → Fin K → EReal) (wl wr : Fin K → Fin n → EReal)
    (b : Fin n → EReal) (r : Fin N) (r' : Fin N') (hx : ∀ k, x r k = x' r' k) (hm : ∀ k, mean r k = mean' r' k) (j : Fin n) :
    lin x mean wl wr b r j = lin x' mean' wl wr b r' j := by
  unfold lin
  simp only [hx, hm]

/-! ## A layer on whole arrays

The same formulas with the families read off two-dimensional arrays: the features and the means 100000 × 64, the
weight matrices 64 × n, the bias a family over the n lanes (each program stores it in its own layout). -/

/-- The first layer on whole arrays: entry i is the normalised linear part of row `i 0` at lane `i 1`, or zero if larger. -/
def rowsPos (X M : (⟨2, ![100000, 64]⟩ : Shape).Idx → EReal) (Wl Wr : (⟨2, ![64, 64]⟩ : Shape).Idx → EReal) (b : Fin 64 → EReal) :
    (⟨2, ![100000, 64]⟩ : Shape).Idx → EReal := fun i =>
  normedPos (lin (fun r k => X (ix2 r k)) (fun r k => M (ix2 r k)) (fun k j => Wl (ix2 k j)) (fun k j => Wr (ix2 k j)) b) (i 0) (i 1)

/-- The second layer on whole arrays: entry i is the normalised linear part of row `i 0` at lane `i 1`. -/
def rows (X M : (⟨2, ![100000, 64]⟩ : Shape).Idx → EReal) (Wl Wr : (⟨2, ![64, 32]⟩ : Shape).Idx → EReal) (b : Fin 32 → EReal) :
    (⟨2, ![100000, 32]⟩ : Shape).Idx → EReal := fun i =>
  normed (lin (fun r k => X (ix2 r k)) (fun r k => M (ix2 r k)) (fun k j => Wl (ix2 k j)) (fun k j => Wr (ix2 k j)) b) (i 0) (i 1)

end Cert.RowLayer

end
-- ==== Proof.KernelPayload.lean ====
/-
  What one grid point of each kernel stores, entry by entry.

  A grid point loads a tile of 5000 rows of the features and of the neighbourhood means, the two weight matrices and
  the bias row, and stores one tile of the layer's output. Read at entry (p, q) the stored value is the layer's
  formula on the loaded blocks: the linear part (two matrix products into zero accumulators and the bias row
  broadcast down the tile), squared and summed along the lanes of row p, the square root of that sum or the floor if
  larger, kept as a column and broadcast back over the lanes, and the linear part divided by it; the first kernel then
  takes the larger of the quotient and zero.
-/
import proofs.«162723_j6700148982287_1_alg».proof.Proof.Gen.KernelIdeal.Skeleton
import proofs.«162723_j6700148982287_1_alg».proof.Proof.LibKeepdims
import proofs.«162723_j6700148982287_1_alg».proof.Proof.RowLayer
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Lib.Keepdims Cert.RowLayer

/-! ### The matrix product of a tile with a 64-column weight matrix, read at an entry -/

theorem lhs64_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs64_1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem rhs64_0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem rhs64_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Into a zero accumulator the product of a 5000 × 64 tile with a 64 × 64 matrix is, at (p, q), the sum over the 64
    contracted coordinates of tile (p, k) times matrix (k, q): the accumulator's zero drops out and the contraction's
    one-axis index is the coordinate k. -/
theorem matmul64_apply {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q) = ∑ k : Fin 64, l (ix2 p k) * r (ix2 k q) := by
  refine (Ideal.matmul_constant_zero_apply dot_S5000x64_S64x64_S5000x64_1_0_0_1_n_n none l r (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-! ### The matrix product of a tile with a 32-column weight matrix, read at an entry -/

theorem lhs32_0 (i : S5000x32.Idx) (q : dot_S5000x64_S64x32_S5000x32_1_0_0_1_n_n.contr.Idx) : (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs32_1 (i : S5000x32.Idx) (q : dot_S5000x64_S64x32_S5000x32_1_0_0_1_n_n.contr.Idx) : (dot_S5000x64_S64x32_S5000x32_1_0_0_1_n_n.lhsIdx i q 1).val = (q ⟨0, by decide⟩).val :=
  dot_S5000x64_S64x32_S5000x32_1_0_0_1_n_n.lhsIdx_val_of_single rfl i q
theorem rhs32_0 (i : S5000x32.Idx) (q : dot_S5000x64_S64x32_S5000x32_1_0_0_1_n_n.contr.Idx) : (dot_S5000x64_S64x32_S5000x32_1_0_0_1_n_n.rhsIdx i q 0).val = (q ⟨0, by decide⟩).val :=
  dot_S5000x64_S64x32_S5000x32_1_0_0_1_n_n.rhsIdx_val_of_single rfl i q
theorem rhs32_1 (i : S5000x32.Idx) (q : dot_S5000x64_S64x32_S5000x32_1_0_0_1_n_n.contr.Idx) : (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- Into a zero accumulator the product of a 5000 × 64 tile with a 64 × 32 matrix is, at (p, q), the sum over the 64
    contracted coordinates of tile (p, k) times matrix (k, q): the accumulator's zero drops out and the contraction's
    one-axis index is the coordinate k. -/
theorem matmul32_apply {φ₁ φ₂ : FTy} (l : FVec Ideal S5000x64 φ₁) (r : FVec Ideal S64x32 φ₂) (p : Fin 5000) (q : Fin 32) :
    matmul dot_S5000x64_S64x32_S5000x32_1_0_0_1_n_n none l r (constant (F := Ideal) S5000x32 .f32 0x00000000#32) (ix2 p q) = ∑ k : Fin 64, l (ix2 p k) * r (ix2 k q) := by
  refine (Ideal.matmul_constant_zero_apply dot_S5000x64_S64x32_S5000x32_1_0_0_1_n_n none l r (ix2 p q)).trans ?_
  rw [← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p q) ((ValueIdx.contrEquiv1 dot_S5000x64_S64x32_S5000x32_1_0_0_1_n_n 64 rfl rfl).symm k) = ix2 p k := funext fun a => Fin.ext (by
    match a with
    | ⟨0, _⟩ => exact lhs32_0 _ _
    | ⟨1, _⟩ => exact (lhs32_1 _ _).trans hk)
  have er : dot_S5000x64_S64x32_S5000x32_1_0_0_1_n_n.rhsIdx (ix2 p q) ((ValueIdx.contrEquiv1 dot_S5000x64_S64x32_S5000x32_1_0_0_1_n_n 64 rfl rfl).symm k) = ix2 k q := funext fun a => Fin.ext (by
    match a with
    | ⟨0, _⟩ => exact (rhs32_0 _ _).trans hk
    | ⟨1, _⟩ => exact rhs32_1 _ _)
  rw [el, er]

/-! ### The linear part -/

/-- The linear part of the body at entry (p, q) of the tile: the means' tile through the first weight matrix, plus the
    bias row broadcast down the rows, plus the features' tile through the second weight matrix — the specification's
    `lin` of the loaded blocks. The roundings to half precision on the way into the products, and the casts of a
    block to its own shape, change nothing at the exact instance. -/
theorem lin64_apply (x0 x1 : FVec Ideal S5000x64 .f32) (x2 x4 : FVec Ideal S64x64 .f32) (x3 : FVec Ideal S1x64 .f32)
    (hb : FTy.bits .bf16 < FTy.bits .f32) (hc : S5000x64.ShapeCasts S5000x64) (hc1 : S1x64.ShapeCasts S1x64) (hbr : S1x64.Broadcasts S5000x64)
    (p : Fin 5000) (q : Fin 64) :
    addf (addf (matmul dot_S5000x64_S64x64_S5000x64_1_0_0_1_n_n none (truncf .bf16 (shapeCast S5000x64 x1 hc) hb) (truncf .bf16 x2 hb) (constant (F := Ideal) S5000x64 .f32 0x00000000#32))
               (broadcastTo S5000x64 (shapeCast S1x64 x3 hc1) hbr))
         (matmul dot_S5000x64_S64x64_S5000x64_1_0_0_1_n_n none (truncf .bf16 x0 hb) (truncf .bf16 x4 hb) (constant (F := Ideal) S5000x64 .f32 0x00000000#32)) (ix2 p q)
      = lin (fun r k => x0 (ix2 r k)) (fun r k => x1 (ix2 r k)) (fun k j => x2 (ix2 k j)) (fun k j => x4 (ix2 k j))
          (fun j => x3 (ix2 (0 : Fin 1) j)) p q := by
  rw [addf_apply, addf_apply, matmul64_apply, matmul64_apply, shapeCast_self, shapeCast_self, broadcastTo_1b_ab_apply]
  rfl

/-- The linear part of the body at entry (p, q) of the tile: the means' tile through the first weight matrix, plus the
    bias row broadcast down the rows, plus the features' tile through the second weight matrix — the specification's
    `lin` of the loaded blocks. The roundings to half precision on the way into the products, and the casts of a
    block to its own shape, change nothing at the exact instance. -/
theorem lin32_apply (x0 x1 : FVec Ideal S5000x64 .f32) (x2 x4 : FVec Ideal S64x32 .f32) (x3 : FVec Ideal S1x32 .f32)
    (hb : FTy.bits .bf16 < FTy.bits .f32) (hc : S5000x64.ShapeCasts S5000x64) (hc1 : S1x32.ShapeCasts S1x32) (hbr : S1x32.Broadcasts S5000x32)
    (p : Fin 5000) (q : Fin 32) :
    addf (addf (matmul dot_S5000x64_S64x32_S5000x32_1_0_0_1_n_n none (truncf .bf16 (shapeCast S5000x64 x1 hc) hb) (truncf .bf16 x2 hb) (constant (F := Ideal) S5000x32 .f32 0x00000000#32))
               (broadcastTo S5000x32 (shapeCast S1x32 x3 hc1) hbr))
         (matmul dot_S5000x64_S64x32_S5000x32_1_0_0_1_n_n none (truncf .bf16 (shapeCast S5000x64 x0 hc) hb) (truncf .bf16 x4 hb) (constant (F := Ideal) S5000x32 .f32 0x00000000#32)) (ix2 p q)
      = lin (fun r k => x0 (ix2 r k)) (fun r k => x1 (ix2 r k)) (fun k j => x2 (ix2 k j)) (fun k j => x4 (ix2 k j))
          (fun j => x3 (ix2 (0 : Fin 1) j)) p q := by
  rw [addf_apply, addf_apply, matmul32_apply, matmul32_apply, shapeCast_self, shapeCast_self, shapeCast_self, broadcastTo_1b_ab_apply]
  rfl

/-! ### The normalisation of a tile's rows -/

/-- The scale of row p as the body computes it, broadcast back to entry (p, q): the lane sum of the squares, its
    square root, the larger of that and the floor — read through the column cast and the broadcast over the lanes. -/
theorem scale64_apply (y : FVec Ideal S5000x64 .f32) (L : Fin 5000 → Fin 64 → EReal) (hy : ∀ p q, y (ix2 p q) = L p q)
    (hr : S5000x64.Reduces [1] S5000) (hφ : FKind.Formats .f32) (hacc : (0x00000000#32 : BitVec 32) = FKind.add.neutral .f32 hφ)
    (hc : S5000.ShapeCasts S5000x1) (hbr : S5000x1.Broadcasts S5000x64) (p : Fin 5000) (q : Fin 64) :
    broadcastTo S5000x64 (maximumf (sqrt (shapeCast S5000x1 (multiReduction .add [1] S5000 (mulf y y) 0x00000000#32 hr hφ hacc) hc))
        (broadcast S5000x1 (Scalar.ofBits (F := Ideal) .f32 0x2B8CBCCC#32))) hbr (ix2 p q) = scale L p := by
  rw [broadcastTo_a1_ab_apply, maximumf_apply]
  show max (Ideal.sqrt (shapeCast S5000x1 (multiReduction .add [1] S5000 (mulf y y) 0x00000000#32 hr hφ hacc) hc (ix2 p (0 : Fin 1)))) normFloor = _
  rw [shapeCast_a_a1_apply, multiReduction_add_lanes]
  simp only [mulf_apply, hy]
  rfl

theorem scale32_apply (y : FVec Ideal S5000x32 .f32) (L : Fin 5000 → Fin 32 → EReal) (hy : ∀ p q, y (ix2 p q) = L p q)
    (hr : S5000x32.Reduces [1] S5000) (hφ : FKind.Formats .f32) (hacc : (0x00000000#32 : BitVec 32) = FKind.add.neutral .f32 hφ)
    (hc : S5000.ShapeCasts S5000x1) (hbr : S5000x1.Broadcasts S5000x32) (p : Fin 5000) (q : Fin 32) :
    broadcastTo S5000x32 (maximumf (sqrt (shapeCast S5000x1 (multiReduction .add [1] S5000 (mulf y y) 0x00000000#32 hr hφ hacc) hc))
        (broadcast S5000x1 (Scalar.ofBits (F := Ideal) .f32 0x2B8CBCCC#32))) hbr (ix2 p q) = scale L p := by
  rw [broadcastTo_a1_ab_apply, maximumf_apply]
  show max (Ideal.sqrt (shapeCast S5000x1 (multiReduction .add [1] S5000 (mulf y y) 0x00000000#32 hr hφ hacc) hc (ix2 p (0 : Fin 1)))) normFloor = _
  rw [shapeCast_a_a1_apply, multiReduction_add_lanes]
  simp only [mulf_apply, hy]
  rfl

/-! ### The stored values -/

/-- The first kernel's stored tile at (p, q): the normalised linear part of the loaded blocks, or zero if that is larger. -/
theorem pay0_apply (x0 x1 : Vec Ideal S5000x64 .f32) (x2 x4 : Vec Ideal S64x64 .f32) (x3 : Vec Ideal S1x64 .f32) (p : Fin 5000) (q : Fin 64) :
    k0_pay1 (F := Ideal) x0 x1 x2 x4 x3 (ix2 p q)
      = normedPos (lin (fun r k => x0 (ix2 r k)) (fun r k => x1 (ix2 r k)) (fun k j => x2 (ix2 k j)) (fun k j => x4 (ix2 k j))
          (fun j => x3 (ix2 (0 : Fin 1) j))) p q := by
  unfold k0_pay1 normedPos normed
  rw [maximumf_apply, divf_apply]
  refine congrArg₂ max (congrArg₂ Ideal.div (lin64_apply x0 x1 x2 x4 x3 _ _ _ _ p q) ?_) rfl
  exact scale64_apply _ _ (fun p q => lin64_apply x0 x1 x2 x4 x3 _ _ _ _ p q) _ _ _ _ _ p q

/-- The second kernel's stored tile at (p, q): the normalised linear part of the loaded blocks. -/
theorem pay1_apply (x0 x1 : Vec Ideal S5000x64 .f32) (x2 x4 : Vec Ideal S64x32 .f32) (x3 : Vec Ideal S1x32 .f32) (p : Fin 5000) (q : Fin 32) :
    k1_pay1 (F := Ideal) x0 x1 x2 x4 x3 (ix2 p q)
      = normed (lin (fun r k => x0 (ix2 r k)) (fun r k => x1 (ix2 r k)) (fun k j => x2 (ix2 k j)) (fun k j => x4 (ix2 k j))
          (fun j => x3 (ix2 (0 : Fin 1) j))) p q := by
  unfold k1_pay1 normed
  rw [divf_apply]
  refine congrArg₂ Ideal.div (lin32_apply x0 x1 x2 x4 x3 _ _ _ _ p q) ?_
  exact scale32_apply _ _ (fun p q => lin32_apply x0 x1 x2 x4 x3 _ _ _ _ p q) _ _ _ _ _ p q

end Cert.KernelIdeal.Payload

end
-- ==== Proof.KernelBlocks.lean ====
/-
  From the tiles to the arrays: what each kernel region leaves in its output array.

  Each kernel runs at twenty grid points; point t loads rows 5000·t … 5000·t + 4999 of the features and of the
  neighbourhood means, the whole weight matrices and the bias row, and writes back rows 5000·t … 5000·t + 4999 of the
  output. An entry of a layer depends on its own row only, so the tile a point stores is the block of ONE function
  of the whole arrays; the twenty blocks cover every row, so after the region the output array is that function. The
  arrays are taken as the region finds them (a parameter): the first region finds the arguments and the first means,
  the second the first region's output and the second means.
-/
import proofs.«162723_j6700148982287_1_alg».proof.Proof.Gen.KernelIdeal.Frame
import proofs.«162723_j6700148982287_1_alg».proof.Proof.KernelPayload
import proofs.«162723_j6700148982287_1_alg».proof.Proof.RowLayer
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Payload
open Idealize.ShloMosaic Idealize.ShloMosaic.TcCoe Idealize.ShloMosaic.ValueIdx Idealize.SL.Sem Cert.RowLayer
open Idealize.ShloMosaic.Pipeline (Dat Cfg Window)

theorem hz : (![0, 0] : Fin 2 → Nat) = fun _ => 0 := funext fun a => by fin_cases a <;> rfl

-- the TensorCore's buffer contents when a region is entered
variable (V : (c : Dev nD) → (b : Ref sig .tc) → Buf (Elt Ideal) ((c : Thread nD τ).loc b))

/-! ## Region 0: the first layer's kernel -/

/-- The printed index maps, decided over the twenty grid points: the features', the means' and the output's blocks
    are block `t` along the rows at point `t`; the weight matrices and the bias row are always block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One stored tile against the whole arrays: if the loaded blocks are rows `5000·T + p` of the features and of the
    means, and the whole weight matrices and bias row, then the stored tile at `y` is the layer's whole-array formula
    at row `5000·T + y 0`, lane `y 1` — an entry depends on its own row only. -/
theorem tile0 (Xb Mb : S5000x64.Idx → EReal) (Wlb Wrb : S64x64.Idx → EReal) (Bb : S1x64.Idx → EReal)
    (X M : S100000x64.Idx → EReal) (Wl Wr : S64x64.Idx → EReal) (b : Fin 64 → EReal) (T : ℕ) (hT : T < 20)
    (hX : ∀ (p : Fin 5000) (k : Fin 64), Xb (ix2 p k) = X (ix2 (⟨T * 5000 + p.val, by have := p.isLt; omega⟩ : Fin 100000) k))
    (hM : ∀ (p : Fin 5000) (k : Fin 64), Mb (ix2 p k) = M (ix2 (⟨T * 5000 + p.val, by have := p.isLt; omega⟩ : Fin 100000) k))
    (hWl : ∀ (k : Fin 64) (j : Fin 64), Wlb (ix2 k j) = Wl (ix2 k j)) (hWr : ∀ (k : Fin 64) (j : Fin 64), Wrb (ix2 k j) = Wr (ix2 k j))
    (hB : ∀ j : Fin 64, Bb (ix2 (0 : Fin 1) j) = b j) (y : S5000x64.Idx) :
    k0_pay1 (F := Ideal) Xb Mb Wlb Wrb Bb y
      = rowsPos X M Wl Wr b (ix2 (⟨T * 5000 + (y 0).val, by have h : (y 0).val < 5000 := (y 0).isLt; omega⟩ : Fin 100000) (⟨(y 1).val, (y 1).isLt⟩ : Fin 64)) := by
  obtain ⟨p, q, rfl⟩ : ∃ (p : Fin 5000) (q : Fin 64), y = ix2 p q := ⟨y 0, y 1, eq_ix2 y⟩
  show k0_pay1 (F := Ideal) Xb Mb Wlb Wrb Bb (ix2 p q) = rowsPos X M Wl Wr b (ix2 (⟨T * 5000 + p.val, by have := p.isLt; omega⟩ : Fin 100000) q)
  rw [pay0_apply]
  have eWl : (fun (k : Fin 64) (j : Fin 64) => Wlb (ix2 k j)) = fun k j => Wl (ix2 k j) := funext fun k => funext fun j => hWl k j
  have eWr : (fun (k : Fin 64) (j : Fin 64) => Wrb (ix2 k j)) = fun k j => Wr (ix2 k j) := funext fun k => funext fun j => hWr k j
  have eB : (fun j : Fin 64 => Bb (ix2 (0 : Fin 1) j)) = b := funext hB
  rw [eWl, eWr, eB]
  unfold rowsPos
  exact normedPos_congr _ _ p _ (fun j => lin_congr _ _ _ _ _ _ _ p _ (hX p) (hM p) j) q

/-- The tile that point `t` writes back is block `t` (rows 5000·t onward) of the layer's whole-array formula, evaluated on
    the arrays as the region finds them: each input block is read where the output block's rows say. -/
theorem flushed0_eq (c : Dev nD) (t : Fin cfg0.N) :
    (dat0 V c).flushed 5 t = ((cfg0.win 5).blk t).view.read (Elt Ideal)
      (rowsPos (V c main_arg0) (V c main_v22) (V c main_arg2) (V c main_arg4) (fun j : Fin 64 => V c main_v23 (ix2 (0 : Fin 1) j))) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51⟩ := idx_facts0 t
  have ht : t.val < 20 := lt_of_lt_of_eq t.isLt N_0
  funext y
  have hy0 : (y 0).val < 5000 := (y 0).isLt
  have hy1 : (y 1).val < 64 := (y 1).isLt
  have hemb : ((cfg0.win 5).blk t).view.emb y = ix2 (⟨t.val * 5000 + (y 0).val, by omega⟩ : Fin 100000) (⟨(y 1).val, hy1⟩ : Fin 64) := by
    funext a; apply Fin.ext
    match a with
    | ⟨0, _⟩ => show win0_5.index t (0 : Fin 2) * 5000 + 1 * (y 0).val = t.val * 5000 + (y 0).val; rw [e50]; omega
    | ⟨1, _⟩ => show win0_5.index t (1 : Fin 2) * 64 + 1 * (y 1).val = (y 1).val; rw [e51]; omega
  show k0_pay1 (F := Ideal) (iblk0 V c 0 t) (iblk0 V c 1 t) (iblk0 V c 2 t) (iblk0 V c 4 t) (iblk0 V c 3 t) y
      = rowsPos (V c main_arg0) (V c main_v22) (V c main_arg2) (V c main_arg4) (fun j : Fin 64 => V c main_v23 (ix2 (0 : Fin 1) j)) (((cfg0.win 5).blk t).view.emb y)
  rw [hemb]
  refine tile0 _ _ _ _ _ _ _ _ _ _ t.val ht ?_ ?_ ?_ ?_ ?_ y
  · intro p k
    show V c main_arg0 (((cfg0.win 0).blk t).view.emb (ix2 p k)) = V c main_arg0 (ix2 (⟨t.val * 5000 + p.val, by have := p.isLt; omega⟩ : Fin 100000) k)
    refine congrArg _ (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 64 + 1 * k.val = k.val; rw [e01]; omega
  · intro p k
    show V c main_v22 (((cfg0.win 1).blk t).view.emb (ix2 p k)) = V c main_v22 (ix2 (⟨t.val * 5000 + p.val, by have := p.isLt; omega⟩ : Fin 100000) k)
    refine congrArg _ (funext fun a => Fin.ext ?_)
    match a with
    | ⟨0, _⟩ => show win0_1.index t (0 : Fin 2) * 5000 + 1 * p.val = t.val * 5000 + p.val; rw [e10]; omega
    | ⟨1, _⟩ => show win0_1.index t (1 : Fin 2) * 64 + 1 * k.val = k.val; rw [e11]; omega
  · intro k j
    show V c main_arg2 (((cfg0.win 2).blk t).view.emb (ix2 k j)) = V c main_arg2 (ix2 k j)
    refine congrArg _ (funext fun a => Fin.ext ?_)
    match a with
    | ⟨0, _⟩ => show win0_2.index t (0 : Fin 2) * 64 + 1 * k.val = k.val; rw [e20]; omega
    | ⟨1, _⟩ => show win0_2.index t (1 : Fin 2) * 64 + 1 * j.val = j.val; rw [e21]; omega
  · intro k j
    show V c main_arg4 (((cfg0.win 4).blk t).view.emb (ix2 k j)) = V c main_arg4 (ix2 k j)
    refine congrArg _ (funext fun a => Fin.ext ?_)
    match a with
    | ⟨0, _⟩ => show win0_4.index t (0 : Fin 2) * 64 + 1 * k.val = k.val; rw [e40]; omega
    | ⟨1, _⟩ => show win0_4.index t (1 : Fin 2) * 64 + 1 * j.val = j.val; rw [e41]; omega
  · intro j
    show V c main_v23 (((cfg0.win 3).blk t).view.emb (ix2 (0 : Fin 1) j)) = V c main_v23 (ix2 (0 : Fin 1) j)
    refine congrArg _ (funext fun a => Fin.ext ?_)
    match a with
    | ⟨0, _⟩ => show win0_3.index t (0 : Fin 2) * 1 + 1 * 0 = 0; rw [e30]
    | ⟨1, _⟩ => show win0_3.index t (1 : Fin 2) * 64 + 1 * j.val = j.val; rw [e31]; omega

/-- An index of the output array is in point `t`'s block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v24).slice (win0_5.rect t)).set ↔ _
  rw [View.set_slice_whole, Rect.mem_set_unit]
  exact Iff.rfl

/-- Every index of the output array is in the block of the point that owns its row: row `r` belongs to point `r / 5000`. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : grid0.N = 20 := N_0
  have hlt : (i 0).val / 5000 < cfg0.N := by show (i 0).val / 5000 < grid0.N; rw [hN]; omega
  refine ⟨⟨(i 0).val / 5000, hlt⟩, flush0_5 _, ?_⟩
  rw [mem_blk0]
  obtain ⟨-, -, -, -, -, -, -, -, -, -, e50, e51⟩ := idx_facts0 ⟨(i 0).val / 5000, hlt⟩
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, hlt⟩ (1 : Fin 2) * 64 ≤ (i 1).val ∧ (i 1).val < win0_5.index ⟨(i 0).val / 5000, hlt⟩ (1 : Fin 2) * 64 + 64
    rw [e51]
    omega

/-- After the region the output array holds the layer's whole-array formula of the arrays as the region finds them:
    every block is a block of that one function, and the blocks cover the array. -/
theorem final0 (c : Dev nD) : (dat0 V c).arrAt 5 cfg0.N
    = rowsPos (V c main_arg0) (V c main_v22) (V c main_arg2) (V c main_arg4) (fun j : Fin 64 => V c main_v23 (ix2 (0 : Fin 1) j)) :=
  (dat0 V c).arrAt_eq_of_cover 5 _ (fun t _ => flushed0_eq V c t) cover0

/-! ## Region 1: the second layer's kernel -/

/-- The printed index maps, decided over the twenty grid points: the features', the means' and the output's blocks
    are block `t` along the rows at point `t`; the weight matrices and the bias row are always block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One stored tile against the whole arrays: if the loaded blocks are rows `5000·T + p` of the features and of the
    means, and the whole weight matrices and bias row, then the stored tile at `y` is the layer's whole-array formula
    at row `5000·T + y 0`, lane `y 1` — an entry depends on its own row only. -/
theorem tile1 (Xb Mb : S5000x64.Idx → EReal) (Wlb Wrb : S64x32.Idx → EReal) (Bb : S1x32.Idx → EReal)
    (X M : S100000x64.Idx → EReal) (Wl Wr : S64x32.Idx → EReal) (b : Fin 32 → EReal) (T : ℕ) (hT : T < 20)
    (hX : ∀ (p : Fin 5000) (k : Fin 64), Xb (ix2 p k) = X (ix2 (⟨T * 5000 + p.val, by have := p.isLt; omega⟩ : Fin 100000) k))
    (hM : ∀ (p : Fin 5000) (k : Fin 64), Mb (ix2 p k) = M (ix2 (⟨T * 5000 + p.val, by have := p.isLt; omega⟩ : Fin 100000) k))
    (hWl : ∀ (k : Fin 64) (j : Fin 32), Wlb (ix2 k j) = Wl (ix2 k j)) (hWr : ∀ (k : Fin 64) (j : Fin 32), Wrb (ix2 k j) = Wr (ix2 k j))
    (hB : ∀ j : Fin 32, Bb (ix2 (0 : Fin 1) j) = b j) (y : S5000x32.Idx) :
    k1_pay1 (F := Ideal) Xb Mb Wlb Wrb Bb y
      = rows X M Wl Wr b (ix2 (⟨T * 5000 + (y 0).val, by have h : (y 0).val < 5000 := (y 0).isLt; omega⟩ : Fin 100000) (⟨(y 1).val, (y 1).isLt⟩ : Fin 32)) := by
  obtain ⟨p, q, rfl⟩ : ∃ (p : Fin 5000) (q : Fin 32), y = ix2 p q := ⟨y 0, y 1, eq_ix2 y⟩
  show k1_pay1 (F := Ideal) Xb Mb Wlb Wrb Bb (ix2 p q) = rows X M Wl Wr b (ix2 (⟨T * 5000 + p.val, by have := p.isLt; omega⟩ : Fin 100000) q)
  rw [pay1_apply]
  have eWl : (fun (k : Fin 64) (j : Fin 32) => Wlb (ix2 k j)) = fun k j => Wl (ix2 k j) := funext fun k => funext fun j => hWl k j
  have eWr : (fun (k : Fin 64) (j : Fin 32) => Wrb (ix2 k j)) = fun k j => Wr (ix2 k j) := funext fun k => funext fun j => hWr k j
  have eB : (fun j : Fin 32 => Bb (ix2 (0 : Fin 1) j)) = b := funext hB
  rw [eWl, eWr, eB]
  unfold rows
  exact normed_congr _ _ p _ (fun j => lin_congr _ _ _ _ _ _ _ p _ (hX p) (hM p) j) q

/-- The tile that point `t` writes back is block `t` (rows 5000·t onward) of the layer's whole-array formula, evaluated on
    the arrays as the region finds them: each input block is read where the output block's rows say. -/
theorem flushed1_eq (c : Dev nD) (t : Fin cfg1.N) :
    (dat1 V c).flushed 5 t = ((cfg1.win 5).blk t).view.read (Elt Ideal)
      (rows (V c main_v24) (V c main_v36) (V c main_arg5) (V c main_arg7) (fun j : Fin 32 => V c main_v37 (ix2 (0 : Fin 1) j))) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x32) hz, View.ld_unit_zero (S := S1x32) hz]
  obtain ⟨e00, e01, e10, e11, e20, e21, e30, e31, e40, e41, e50, e51⟩ := idx_facts1 t
  have ht : t.val < 20 := lt_of_lt_of_eq t.isLt N_1
  funext y
  have hy0 : (y 0).val < 5000 := (y 0).isLt
  have hy1 : (y 1).val < 32 := (y 1).isLt
  have hemb : ((cfg1.win 5).blk t).view.emb y = ix2 (⟨t.val * 5000 + (y 0).val, by omega⟩ : Fin 100000) (⟨(y 1).val, hy1⟩ : Fin 32) := by
    funext a; apply Fin.ext
    match a with
    | ⟨0, _⟩ => show win1_5.index t (0 : Fin 2) * 5000 + 1 * (y 0).val = t.val * 5000 + (y 0).val; rw [e50]; omega
    | ⟨1, _⟩ => show win1_5.index t (1 : Fin 2) * 32 + 1 * (y 1).val = (y 1).val; rw [e51]; omega
  show k1_pay1 (F := Ideal) (iblk1 V c 0 t) (iblk1 V c 1 t) (iblk1 V c 2 t) (iblk1 V c 4 t) (iblk1 V c 3 t) y
      = rows (V c main_v24) (V c main_v36) (V c main_arg5) (V c main_arg7) (fun j : Fin 32 => V c main_v37 (ix2 (0 : Fin 1) j)) (((cfg1.win 5).blk t).view.emb y)
  rw [hemb]
  refine tile1 _ _ _ _ _ _ _ _ _ _ t.val ht ?_ ?_ ?_ ?_ ?_ y
  · intro p k
    show V c main_v24 (((cfg1.win 0).blk t).view.emb (ix2 p k)) = V c main_v24 (ix2 (⟨t.val * 5000 + p.val, by have := p.isLt; omega⟩ : Fin 100000) k)
    refine congrArg _ (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 64 + 1 * k.val = k.val; rw [e01]; omega
  · intro p k
    show V c main_v36 (((cfg1.win 1).blk t).view.emb (ix2 p k)) = V c main_v36 (ix2 (⟨t.val * 5000 + p.val, by have := p.isLt; omega⟩ : Fin 100000) k)
    refine congrArg _ (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 64 + 1 * k.val = k.val; rw [e11]; omega
  · intro k j
    show V c main_arg5 (((cfg1.win 2).blk t).view.emb (ix2 k j)) = V c main_arg5 (ix2 k j)
    refine congrArg _ (funext fun a => Fin.ext ?_)
    match a with
    | ⟨0, _⟩ => show win1_2.index t (0 : Fin 2) * 64 + 1 * k.val = k.val; rw [e20]; omega
    | ⟨1, _⟩ => show win1_2.index t (1 : Fin 2) * 32 + 1 * j.val = j.val; rw [e21]; omega
  · intro k j
    show V c main_arg7 (((cfg1.win 4).blk t).view.emb (ix2 k j)) = V c main_arg7 (ix2 k j)
    refine congrArg _ (funext fun a => Fin.ext ?_)
    match a with
    | ⟨0, _⟩ => show win1_4.index t (0 : Fin 2) * 64 + 1 * k.val = k.val; rw [e40]; omega
    | ⟨1, _⟩ => show win1_4.index t (1 : Fin 2) * 32 + 1 * j.val = j.val; rw [e41]; omega
  · intro j
    show V c main_v37 (((cfg1.win 3).blk t).view.emb (ix2 (0 : Fin 1) j)) = V c main_v37 (ix2 (0 : Fin 1) j)
    refine congrArg _ (funext fun a => Fin.ext ?_)
    match a with
    | ⟨0, _⟩ => show win1_3.index t (0 : Fin 2) * 1 + 1 * 0 = 0; rw [e30]
    | ⟨1, _⟩ => show win1_3.index t (1 : Fin 2) * 32 + 1 * j.val = j.val; rw [e31]; omega

/-- An index of the output array is in point `t`'s block iff each coordinate is in the block's range on its axis. -/
theorem mem_blk1 (t : Fin cfg1.N) (i : S100000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v38).slice (win1_5.rect t)).set ↔ _
  rw [View.set_slice_whole, Rect.mem_set_unit]
  exact Iff.rfl

/-- Every index of the output array is in the block of the point that owns its row: row `r` belongs to point `r / 5000`. -/
theorem cover1 (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  have hN : grid1.N = 20 := N_1
  have hlt : (i 0).val / 5000 < cfg1.N := by show (i 0).val / 5000 < grid1.N; rw [hN]; omega
  refine ⟨⟨(i 0).val / 5000, hlt⟩, flush1_5 _, ?_⟩
  rw [mem_blk1]
  obtain ⟨-, -, -, -, -, -, -, -, -, -, e50, e51⟩ := idx_facts1 ⟨(i 0).val / 5000, hlt⟩
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, hlt⟩ (1 : Fin 2) * 32 ≤ (i 1).val ∧ (i 1).val < win1_5.index ⟨(i 0).val / 5000, hlt⟩ (1 : Fin 2) * 32 + 32
    rw [e51]
    omega

/-- After the region the output array holds the layer's whole-array formula of the arrays as the region finds them:
    every block is a block of that one function, and the blocks cover the array. -/
theorem final1 (c : Dev nD) : (dat1 V c).arrAt 5 cfg1.N
    = rows (V c main_v24) (V c main_v36) (V c main_arg5) (V c main_arg7) (fun j : Fin 32 => V c main_v37 (ix2 (0 : Fin 1) j)) :=
  (dat1 V c).arrAt_eq_of_cover 5 _ (fun t _ => flushed1_eq V c t) cover1

end Cert.KernelIdeal.Blocks

end
-- ==== Proof.RefLayers.lean ====
/-
  The reference's two layers, read entry by entry.

  The reference computes each layer on the whole arrays: the neighbourhood means through one weight matrix, plus the
  bias broadcast over the rows, plus the features through the other; the squares summed along each row from zero,
  the square root, the larger of that and the floor, broadcast back over the lanes; the quotient; and after the first
  layer the larger of the quotient and zero. Read at entry (r, j) each stage is the specification's formula with the
  reference's own means — which are gathered and summed over the edges, and are not opened here — in the place of
  the means.
-/
import proofs.«162723_j6700148982287_1_alg».proof.Proof.Gen.ReferenceIdeal.Read
import proofs.«162723_j6700148982287_1_alg».proof.Proof.RowLayer
import Idealize.ShloMosaic.Lib.ValueIdx
import Idealize.ShloMosaic.PureOps.Ideal.Laws

noncomputable section

namespace Cert.ReferenceIdeal.Layers

open Cert.ReferenceIdeal Cert.ReferenceIdeal.Gen Cert.ReferenceIdeal.Read Idealize.ShloMosaic Idealize.ShloMosaic.ValueIdx Cert.RowLayer

/-! ## Index arithmetic -/

/-- The row's lane k, reached through the reference's three layout steps (lanes ← column ← row statistic ← lane sum),
    is entry (r, k). -/
theorem idx_chain1 (r : Fin 100000) (j k : Fin 64) : idx_main_v30 (idx_main_v31 (idx_main_v35 (ix2 r j))) k = ix2 r k :=
  funext fun a => Fin.ext (by match a with | ⟨0, _⟩ => rfl | ⟨1, _⟩ => rfl)
theorem idx_chain2 (r : Fin 100000) (j k : Fin 32) : idx_main_v68 (idx_main_v69 (idx_main_v73 (ix2 r j))) k = ix2 r k :=
  funext fun a => Fin.ext (by match a with | ⟨0, _⟩ => rfl | ⟨1, _⟩ => rfl)

/-! ## The first layer: 64 features to 64 -/

/-- The first layer's means, as the reference computes them, as a family over rows and lanes. -/
def mean1 (x0 : (⟨S100000x64, .f32⟩ : BufTy).Contents (Elt Ideal)) (x1 : (⟨S2x1000000, .i32⟩ : BufTy).Contents (Elt Ideal)) : Fin 100000 → Fin 64 → EReal :=
  fun r k => val_main_v22 (F := Ideal) x0 x1 (ix2 r k)

/-- The first layer's linear part at (r, j): two host matrix products as sums over the 64 contracted coordinates, and
    the bias read through its two broadcasts. -/
theorem lin1_apply (x0 : (⟨S100000x64, .f32⟩ : BufTy).Contents (Elt Ideal)) (x1 : (⟨S2x1000000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (r : Fin 100000) (j : Fin 64) :
    val_main_v28 (F := Ideal) x0 x1 x2 x3 x4 (ix2 r j)
      = lin (fun r k => x0 (ix2 r k)) (mean1 x0 x1) (fun k j => x2 (ix2 k j)) (fun k j => x4 (ix2 k j)) (fun j => x3 (ix1 j)) r j := by
  rw [val_main_v28_apply, val_main_v26_apply, val_main_v23_apply, val_main_v25_apply, val_main_v24_apply, val_main_v27_apply]
  have e1 : ∀ k : Fin 64, lidx_main_v23 (ix2 r j) k = ix2 r k := fun k => funext fun a => Fin.ext (by match a with | ⟨0, _⟩ => rfl | ⟨1, _⟩ => rfl)
  have e2 : ∀ k : Fin 64, ridx_main_v23 (ix2 r j) k = ix2 k j := fun k => funext fun a => Fin.ext (by match a with | ⟨0, _⟩ => rfl | ⟨1, _⟩ => rfl)
  have e3 : ∀ k : Fin 64, lidx_main_v27 (ix2 r j) k = ix2 r k := fun k => funext fun a => Fin.ext (by match a with | ⟨0, _⟩ => rfl | ⟨1, _⟩ => rfl)
  have e4 : ∀ k : Fin 64, ridx_main_v27 (ix2 r j) k = ix2 k j := fun k => funext fun a => Fin.ext (by match a with | ⟨0, _⟩ => rfl | ⟨1, _⟩ => rfl)
  have e5 : idx_main_v24 (idx_main_v25 (ix2 r j)) = ix1 j := funext fun a => Fin.ext (by match a with | ⟨0, _⟩ => rfl)
  simp only [e1, e2, e3, e4, e5]
  rfl

/-- The first layer's divisor at (r, j) is the scale of row r of the linear part: the host sum starts from zero, which
    drops out. -/
theorem scale1_apply (x0 : (⟨S100000x64, .f32⟩ : BufTy).Contents (Elt Ideal)) (x1 : (⟨S2x1000000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (r : Fin 100000) (j : Fin 64) :
    val_main_v35 (F := Ideal) x0 x1 x2 x3 x4 (ix2 r j) = scale (fun r j => val_main_v28 (F := Ideal) x0 x1 x2 x3 x4 (ix2 r j)) r := by
  rw [val_main_v35_apply, val_main_v34_apply, val_main_v32_apply, val_main_v31_apply, val_main_v30_apply, val_main_v33_apply]
  have hs : (∑ k : Fin 64, val_main_v29 (F := Ideal) x0 x1 x2 x3 x4 (idx_main_v30 (idx_main_v31 (idx_main_v35 (ix2 r j))) k))
      = ∑ k : Fin 64, val_main_v28 (F := Ideal) x0 x1 x2 x3 x4 (ix2 r k) * val_main_v28 (F := Ideal) x0 x1 x2 x3 x4 (ix2 r k) :=
    Finset.sum_congr rfl fun k _ => by
      rw [idx_chain1 r j k, val_main_v29_apply, Ideal.mulf_def]
  rw [hs, val_main_cst_4_apply, Ideal.ofBits_def, Ideal.ofBits_zero_f32, zero_add, Ideal.maximumf_def, Ideal.hostUnary_sqrt_def,
    val_main_cst_5_apply, Ideal.ofBits_def]
  unfold scale normFloor
  rfl

/-- The first layer's output at (r, j): the normalised linear part, or zero if that is larger. -/
theorem layer1_apply (x0 : (⟨S100000x64, .f32⟩ : BufTy).Contents (Elt Ideal)) (x1 : (⟨S2x1000000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (r : Fin 100000) (j : Fin 64) :
    val_main_v37 (F := Ideal) x0 x1 x2 x3 x4 (ix2 r j)
      = normedPos (lin (fun r k => x0 (ix2 r k)) (mean1 x0 x1) (fun k j => x2 (ix2 k j)) (fun k j => x4 (ix2 k j)) (fun j => x3 (ix1 j))) r j := by
  rw [val_main_v37_apply, val_main_v36_apply, scale1_apply, val_main_call0_v0_apply]
  simp only [lin1_apply]
  rfl

/-! ## The second layer: 64 features to 32 -/

/-- The first layer's output as a family over rows and lanes: the second layer's features. -/
def hidden (x0 : (⟨S100000x64, .f32⟩ : BufTy).Contents (Elt Ideal)) (x1 : (⟨S2x1000000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) : Fin 100000 → Fin 64 → EReal :=
  fun r k => val_main_v37 (F := Ideal) x0 x1 x2 x3 x4 (ix2 r k)

/-- The second layer's means, as the reference computes them from the first layer's output. -/
def mean2 (x0 : (⟨S100000x64, .f32⟩ : BufTy).Contents (Elt Ideal)) (x1 : (⟨S2x1000000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) : Fin 100000 → Fin 64 → EReal :=
  fun r k => val_main_v60 (F := Ideal) x0 x1 x2 x3 x4 (ix2 r k)

theorem lin2_apply (x0 : (⟨S100000x64, .f32⟩ : BufTy).Contents (Elt Ideal)) (x1 : (⟨S2x1000000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (r : Fin 100000) (j : Fin 32) :
    val_main_v66 (F := Ideal) x0 x1 x2 x3 x4 x5 x6 x7 (ix2 r j)
      = lin (hidden x0 x1 x2 x3 x4) (mean2 x0 x1 x2 x3 x4) (fun k j => x5 (ix2 k j)) (fun k j => x7 (ix2 k j)) (fun j => x6 (ix1 j)) r j := by
  rw [val_main_v66_apply, val_main_v64_apply, val_main_v61_apply, val_main_v63_apply, val_main_v62_apply, val_main_v65_apply]
  have e1 : ∀ k : Fin 64, lidx_main_v61 (ix2 r j) k = ix2 r k := fun k => funext fun a => Fin.ext (by match a with | ⟨0, _⟩ => rfl | ⟨1, _⟩ => rfl)
  have e2 : ∀ k : Fin 64, ridx_main_v61 (ix2 r j) k = ix2 k j := fun k => funext fun a => Fin.ext (by match a with | ⟨0, _⟩ => rfl | ⟨1, _⟩ => rfl)
  have e3 : ∀ k : Fin 64, lidx_main_v65 (ix2 r j) k = ix2 r k := fun k => funext fun a => Fin.ext (by match a with | ⟨0, _⟩ => rfl | ⟨1, _⟩ => rfl)
  have e4 : ∀ k : Fin 64, ridx_main_v65 (ix2 r j) k = ix2 k j := fun k => funext fun a => Fin.ext (by match a with | ⟨0, _⟩ => rfl | ⟨1, _⟩ => rfl)
  have e5 : idx_main_v62 (idx_main_v63 (ix2 r j)) = ix1 j := funext fun a => Fin.ext (by match a with | ⟨0, _⟩ => rfl)
  simp only [e1, e2, e3, e4, e5]
  rfl

theorem scale2_apply (x0 : (⟨S100000x64, .f32⟩ : BufTy).Contents (Elt Ideal)) (x1 : (⟨S2x1000000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (r : Fin 100000) (j : Fin 32) :
    val_main_v73 (F := Ideal) x0 x1 x2 x3 x4 x5 x6 x7 (ix2 r j) = scale (fun r j => val_main_v66 (F := Ideal) x0 x1 x2 x3 x4 x5 x6 x7 (ix2 r j)) r := by
  rw [val_main_v73_apply, val_main_v72_apply, val_main_v70_apply, val_main_v69_apply, val_main_v68_apply, val_main_v71_apply]
  have hs : (∑ k : Fin 32, val_main_v67 (F := Ideal) x0 x1 x2 x3 x4 x5 x6 x7 (idx_main_v68 (idx_main_v69 (idx_main_v73 (ix2 r j))) k))
      = ∑ k : Fin 32, val_main_v66 (F := Ideal) x0 x1 x2 x3 x4 x5 x6 x7 (ix2 r k) * val_main_v66 (F := Ideal) x0 x1 x2 x3 x4 x5 x6 x7 (ix2 r k) :=
    Finset.sum_congr rfl fun k _ => by
      rw [idx_chain2 r j k, val_main_v67_apply, Ideal.mulf_def]
  rw [hs, val_main_cst_12_apply, Ideal.ofBits_def, Ideal.ofBits_zero_f32, zero_add, Ideal.maximumf_def, Ideal.hostUnary_sqrt_def,
    val_main_cst_13_apply, Ideal.ofBits_def]
  unfold scale normFloor
  rfl

/-- The reference's result at (r, j): the second layer's normalised linear part. -/
theorem layer2_apply (x0 : (⟨S100000x64, .f32⟩ : BufTy).Contents (Elt Ideal)) (x1 : (⟨S2x1000000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (r : Fin 100000) (j : Fin 32) :
    val_main_v74 (F := Ideal) x0 x1 x2 x3 x4 x5 x6 x7 (ix2 r j)
      = normed (lin (hidden x0 x1 x2 x3 x4) (mean2 x0 x1 x2 x3 x4) (fun k j => x5 (ix2 k j)) (fun k j => x7 (ix2 k j)) (fun j => x6 (ix1 j))) r j := by
  rw [val_main_v74_apply, scale2_apply]
  simp only [lin2_apply]
  rfl

end Cert.ReferenceIdeal.Layers

end
-- ==== Proof.KernelValue.lean ====
/-
  The kernel program's result as a function of its arguments.

  Between the launch and the return the program alternates host operations and the two kernels. At the first kernel's
  entry its operands hold: the features and the weights as launched, the first neighbourhood means (the features
  gathered along the edges' sources, summed into the edges' targets, divided by the larger of the target's edge count
  and one) and the bias recast as a row. The first kernel leaves the first layer's output. At the second kernel's
  entry its operands hold that output, the second means (the same gather, sum and quotient, of that output) and the
  second layer's weights and bias row; it leaves the second layer's output, which is the result. The gather and the
  scatter are the same host operations of the same edge list in both programs and are never opened: each means array
  is matched as a whole with the reference's.
-/
import proofs.«162723_j6700148982287_1_alg».proof.Proof.Gen.KernelIdeal.Frame
import proofs.«162723_j6700148982287_1_alg».proof.Proof.KernelBlocks
import proofs.«162723_j6700148982287_1_alg».proof.Proof.RefLayers
import Idealize.ShloMosaic.Lib.StableHlo.Run
import Idealize.ShloMosaic.Lib.ValueLayout
import Idealize.ShloMosaic.Lib.ValueIdx

set_option maxRecDepth 16384

noncomputable section

namespace Cert.KernelIdeal.Result

open Cert.KernelIdeal Cert.KernelIdeal.Gen Cert.KernelIdeal.Blocks
open Idealize.ShloMosaic Idealize.ShloMosaic.TcCoe Idealize.ShloMosaic.ValueIdx Idealize.SL.Sem Idealize.ShloMosaic.StableHlo Cert.RowLayer
open Cert.ReferenceIdeal.Layers (layer1_apply layer2_apply)

variable (m : (ℓ : Loc nD τ sig) → Buf (Elt Ideal) ℓ) (ρ : Dev nD → PrngReg)

/-! ## The first kernel's operands at its entry -/

/-- No host operation before the first kernel writes the features. -/
theorem V1_arg0 (c : Dev nD) : V1 m ρ c main_arg0 = (m ((c : Thread nD τ).loc main_arg0)) := by
  show StableHlo.after hostOps0 (W0 m ρ c) (Proc.devRef .tc main_arg0) = _
  after_results_simp <;> rfl

/-- … nor the first layer's first weight matrix, -/
theorem V1_arg2 (c : Dev nD) : V1 m ρ c main_arg2 = (m ((c : Thread nD τ).loc main_arg2)) := by
  show StableHlo.after hostOps0 (W0 m ρ c) (Proc.devRef .tc main_arg2) = _
  after_results_simp <;> rfl

/-- … nor its second. -/
theorem V1_arg4 (c : Dev nD) : V1 m ρ c main_arg4 = (m ((c : Thread nD τ).loc main_arg4)) := by
  show StableHlo.after hostOps0 (W0 m ρ c) (Proc.devRef .tc main_arg4) = _
  after_results_simp <;> rfl

/-- The first stretch of host operations leaves argument 5 as launched. -/
theorem V1_argN5 (c : Dev nD) : V1 m ρ c main_arg5 = (m ((c : Thread nD τ).loc main_arg5)) := by
  show StableHlo.after hostOps0 (W0 m ρ c) (Proc.devRef .tc main_arg5) = _
  after_results_simp <;> rfl

/-- The first stretch of host operations leaves argument 6 as launched. -/
theorem V1_argN6 (c : Dev nD) : V1 m ρ c main_arg6 = (m ((c : Thread nD τ).loc main_arg6)) := by
  show StableHlo.after hostOps0 (W0 m ρ c) (Proc.devRef .tc main_arg6) = _
  after_results_simp <;> rfl

/-- The first stretch of host operations leaves argument 7 as launched. -/
theorem V1_argN7 (c : Dev nD) : V1 m ρ c main_arg7 = (m ((c : Thread nD τ).loc main_arg7)) := by
  show StableHlo.after hostOps0 (W0 m ρ c) (Proc.devRef .tc main_arg7) = _
  after_results_simp <;> rfl

set_option maxHeartbeats 4000000 in
/-- The first means, as the host operations before the first kernel compute them, are the reference's first means of
    the same features and edge list: the same gather, scatter-add, edge count and quotient, operation for operation. -/
theorem V1_mean (c : Dev nD) : V1 m ρ c main_v22 = Cert.ReferenceIdeal.Read.val_main_v22 (F := Ideal) (m ((c : Thread nD τ).loc main_arg0)) (m ((c : Thread nD τ).loc main_arg1)) := by
  show StableHlo.after hostOps0 (W0 m ρ c) (Proc.devRef .tc main_v22) = _
  after_results_simp <;> rfl

/-- The first bias, recast from a vector to a one-row array, read at lane j. -/
theorem V1_bias (c : Dev nD) (j : Fin 64) : V1 m ρ c main_v23 (ix2 (0 : Fin 1) j) = (m ((c : Thread nD τ).loc main_arg3)) (ix1 j) := by
  have e : V1 m ρ c main_v23 = shapeCast S1x64 (m ((c : Thread nD τ).loc main_arg3)) shapeCasts_S64_S1x64 := by
    show StableHlo.after hostOps0 (W0 m ρ c) (Proc.devRef .tc main_v23) = _
    after_results_simp <;> rfl
  rw [e]
  exact shapeCast_a_1a_apply _ _ 0 j

/-! ## What the first kernel leaves -/

/-- After the first kernel its output array is the reference's first layer of the same arguments, entry by entry. -/
theorem hidden_eq (c : Dev nD) :
    W2 m ρ c (Proc.devRef .tc main_v24) = Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((W2_arr m ρ c 5).trans (final0 (V1 m ρ) c)).trans ?_
  rw [V1_arg0 m ρ c, V1_mean m ρ c, V1_arg2 m ρ c, V1_arg4 m ρ c]
  funext i
  obtain ⟨r, j, rfl⟩ : ∃ (r : Fin 100000) (j : Fin 64), i = ix2 r j := ⟨i 0, i 1, eq_ix2 i⟩
  rw [layer1_apply]
  unfold rowsPos Cert.ReferenceIdeal.Layers.mean1
  rw [show (fun j : Fin 64 => V1 m ρ c main_v23 (ix2 (0 : Fin 1) j)) = fun j => (m ((c : Thread nD τ).loc main_arg3)) (ix1 j) from funext (V1_bias m ρ c)]

/-! ## The second kernel's operands at its entry -/

/-- The edges' targets, sources and the clamped edge counts the first stretch of host operations left are not touched
    by the first kernel, and are the reference's own second computation of them. -/
theorem tgt_eq (c : Dev nD) : W2 m ρ c (Proc.devRef .tc main_v3) = Cert.ReferenceIdeal.Read.val_main_v41 (F := Ideal) (m ((c : Thread nD τ).loc main_arg1)) := by
  refine (W2_of_ne m ρ c main_v3 (by decide)).trans ?_
  show StableHlo.after hostOps0 (W0 m ρ c) (Proc.devRef .tc main_v3) = _
  after_results_simp <;> rfl
theorem src_eq (c : Dev nD) : W2 m ρ c (Proc.devRef .tc main_v1) = Cert.ReferenceIdeal.Read.val_main_v39 (F := Ideal) (m ((c : Thread nD τ).loc main_arg1)) := by
  refine (W2_of_ne m ρ c main_v1 (by decide)).trans ?_
  show StableHlo.after hostOps0 (W0 m ρ c) (Proc.devRef .tc main_v1) = _
  after_results_simp <;> rfl
set_option maxHeartbeats 4000000 in
theorem cnt_eq (c : Dev nD) : W2 m ρ c (Proc.devRef .tc main_v10) = Cert.ReferenceIdeal.Read.val_main_v58 (F := Ideal) (m ((c : Thread nD τ).loc main_arg1)) := by
  refine (W2_of_ne m ρ c main_v10 (by decide)).trans ?_
  show StableHlo.after hostOps0 (W0 m ρ c) (Proc.devRef .tc main_v10) = _
  after_results_simp <;> rfl

/-- The second kernel finds the first kernel's output in place: the reference's first layer. -/
theorem V3_hidden (c : Dev nD) : V3 m ρ c main_v24 = Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v24) = _
  after_results_simp
  exact hidden_eq m ρ c

set_option maxHeartbeats 4000000 in
/-- The second means, as the host operations between the kernels compute them from the first kernel's output, are the
    reference's second means: the same operations of the same first-layer output and edge list. -/
theorem V3_mean (c : Dev nD) : V3 m ρ c main_v36 = Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v36) = _
  after_results_simp
  rw [hidden_eq m ρ c, tgt_eq m ρ c, src_eq m ρ c, cnt_eq m ρ c]
  rfl

theorem V3_arg5 (c : Dev nD) : V3 m ρ c main_arg5 = (m ((c : Thread nD τ).loc main_arg5)) := by
  show StableHlo.after hostOps1 (W2 m ρ c) (Proc.devRef .tc main_arg5) = _
  after_results_simp
  exact (W2_of_ne m ρ c main_arg5 (by decide)).trans (V1_argN5 m ρ c)
theorem V3_arg7 (c : Dev nD) : V3 m ρ c main_arg7 = (m ((c : Thread nD τ).loc main_arg7)) := by
  show StableHlo.after hostOps1 (W2 m ρ c) (Proc.devRef .tc main_arg7) = _
  after_results_simp
  exact (W2_of_ne m ρ c main_arg7 (by decide)).trans (V1_argN7 m ρ c)

/-- The second bias, recast to a one-row array, read at lane j. -/
theorem V3_bias (c : Dev nD) (j : Fin 32) : V3 m ρ c main_v37 (ix2 (0 : Fin 1) j) = (m ((c : Thread nD τ).loc main_arg6)) (ix1 j) := by
  have e : V3 m ρ c main_v37 = shapeCast S1x32 (m ((c : Thread nD τ).loc main_arg6)) shapeCasts_S32_S1x32 := by
    show StableHlo.after hostOps1 (W2 m ρ c) (Proc.devRef .tc main_v37) = _
    after_results_simp
    rw [(W2_of_ne m ρ c main_arg6 (by decide)).trans (V1_argN6 m ρ c)]
    rfl
  rw [e]
  exact shapeCast_a_1a_apply _ _ 0 j

/-! ## The result -/

/-- After the second kernel the result array is the reference's result of the same arguments. -/
theorem result_eq (c : Dev nD) :
    W4 m ρ c (Proc.devRef .tc main_v38) = Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W4_arr m ρ c 5).trans (final1 (V3 m ρ) c)).trans ?_
  rw [V3_hidden m ρ c, V3_mean m ρ c, V3_arg5 m ρ c, V3_arg7 m ρ c]
  funext i
  obtain ⟨r, j, rfl⟩ : ∃ (r : Fin 100000) (j : Fin 32), i = ix2 r j := ⟨i 0, i 1, eq_ix2 i⟩
  rw [layer2_apply]
  unfold rows Cert.ReferenceIdeal.Layers.hidden Cert.ReferenceIdeal.Layers.mean2
  rw [show (fun j : Fin 32 => V3 m ρ c main_v37 (ix2 (0 : Fin 1) j)) = fun j => (m ((c : Thread nD τ).loc main_arg6)) (ix1 j) from funext (V3_bias m ρ c)]

end Cert.KernelIdeal.Result

end
-- ==== Proof.lean ====
/-
  A two-layer graph network, tiled over the nodes, against its whole-array reference.

  Each layer takes the node features x and, for every node, the mean of x over the sources of the edges that end at
  that node (the sum over those edges divided by the larger of their number and one); it forms
  (mean · Wl + b) + x · Wr, divides each row by the larger of its Euclidean norm and a small positive floor, and after
  the first layer replaces every negative entry by zero. The reference computes all of this on whole arrays. The
  kernel program computes the means on the host exactly as the reference does, and the rest of each layer in a kernel
  that visits the 100000 nodes in twenty tiles of 5000 rows.

  On the extended reals the two agree entry by entry, and no algebraic law is needed beyond reading both sides at an
  index: a layer's entry (r, j) depends on row r of the features and of the means only, so the tile that holds row r
  computes for it exactly the reference's numbers; the matrix products are the same sums over the 64 features, the row
  sums the same sums over the lanes (the reference's starts from a zero that drops out), the roundings to half
  precision on the way into the kernel's products are the identity, and the square root, quotient and maxima are the
  same functions, infinities included. So the proof never uses that the inputs are finite. The gather along the edges
  and the scatter-add into the targets are the same host operations of the same edge list in both programs; they are
  matched as whole arrays and never opened, which is also why nothing is asked of the edge indices.

  The modules: RowLayer states a layer row by row; KernelPayload reads what one grid point stores at an entry;
  KernelBlocks assembles the twenty tiles into each kernel's output array; RefLayers reads the reference's stages at an
  entry; KernelRun names the kernel program's result in its run; KernelValue reads the host operations between the
  kernels and concludes that the result is the reference's. The three frame claims are the generated frames (the
  reference's is its generated run with the result dropped); the idealization rewrote nothing, so there is nothing to
  preserve.
-/
import proofs.«162723_j6700148982287_1_alg».proof.Defs
import proofs.«162723_j6700148982287_1_alg».proof.Proof.Gen.Kernel
import proofs.«162723_j6700148982287_1_alg».proof.Proof.Gen.Kernel.Frame
import proofs.«162723_j6700148982287_1_alg».proof.Proof.Gen.KernelIdeal
import proofs.«162723_j6700148982287_1_alg».proof.Proof.Gen.KernelIdeal.Frame
import proofs.«162723_j6700148982287_1_alg».proof.Proof.Gen.ReferenceIdeal
import proofs.«162723_j6700148982287_1_alg».proof.Proof.Gen.ReferenceIdeal.Run
import proofs.«162723_j6700148982287_1_alg».proof.Proof.Gen.ReferenceIdeal.Read
import proofs.«162723_j6700148982287_1_alg».proof.Proof.Gen.Pre_finite_inputs
import proofs.«162723_j6700148982287_1_alg».proof.Proof.KernelRun
import proofs.«162723_j6700148982287_1_alg».proof.Proof.KernelValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's last stage of the kernel program's arguments: the kernel program because its
    result array is that stage (KernelValue), the reference because its run's term is that stage of its own arguments,
    which agree with the kernel program's. -/
theorem algebraic : Cert.algebraic_KernelIdeal_ReferenceIdeal := by
  intro m ρ m' ρ' _ hagree
  refine ⟨fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Result.result_eq m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v74_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
